-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4 : Shape := ⟨2, ![4096, 4]⟩
abbrev S_ : Shape := ⟨0, ![]⟩

class Facts : Prop where
  bcast_S_S4096x4 : S_.BroadcastsInDim S4096x4 (![] : Fin 0 → Fin S4096x4.rank)
  reducesTo_S4096x4_S_d0_1 : S4096x4.ReducesTo [0, 1] S_
  h_S_ : 0 < S_.numel

variable [Facts]

def fn {F : FTy → Type} [FloatOps F] (main_arg0 : FVec F S4096x4 .f32) : IVec S_ 1 :=
  let main_v0 : FVec F S4096x4 .f32 := Host.absf main_arg0
  let main_cst : FVec F S_ .f32 := constant S_ .f32 0x7F800000#32
  let main_v1 : FVec F S4096x4 .f32 := broadcastInDim S4096x4 ![] bcast_S_S4096x4 main_cst
  let main_v2 : IVec S4096x4 1 := cmpf .olt main_v0 main_v1
  let main_c : IVec S_ 1 := constantI S_ 1 1#1
  let main_v3 : IVec S_ 1 := (fun x v => Host.reduce IntOp.andi x v reducesTo_S4096x4_S_d0_1 h_S_) main_v2 main_c
  main_v3
-- ==== Kernel.lean ====
abbrev S4096x4 : Shape := ⟨2, ![4096, 4]⟩
abbrev S1x8x4096x4096 : Shape := ⟨4, ![1, 8, 4096, 4096]⟩
abbrev S1x8x512x512 : Shape := ⟨4, ![1, 8, 512, 512]⟩
abbrev S512x4 : Shape := ⟨2, ![512, 4]⟩
abbrev S4x512 : Shape := ⟨2, ![4, 512]⟩
abbrev S4x512x1 : Shape := ⟨3, ![4, 512, 1]⟩
abbrev S4x512x512 : Shape := ⟨3, ![4, 512, 512]⟩
abbrev S4x1x512 : Shape := ⟨3, ![4, 1, 512]⟩
abbrev S1x4x512x512 : Shape := ⟨4, ![1, 4, 512, 512]⟩

abbrev nBuf : Space → Nat
  | .hbm => 2
  | .vmem => 3
  | .smem => 0
  | _ => 0

abbrev bufTy : (tb : Table) → Fin (tcTables nBuf tb) → BufTy
  | .hbm, ⟨0, _⟩ => ⟨S4096x4, .f32⟩
  | .hbm, ⟨1, _⟩ => ⟨S1x8x4096x4096, .f32⟩
  | .local _ .vmem, ⟨0, _⟩ => ⟨S4096x4, .f32⟩
  | .local _ .vmem, ⟨1, _⟩ => ⟨S1x8x512x512, .f32⟩
  | .local _ .vmem, ⟨2, _⟩ => ⟨S1x8x512x512, .f32⟩
  | _, _ => ⟨S4096x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c512_i32_0 : BitVec 32 := 512#32
  let v2 : BitVec 32 := Scalar.muli arg1 c512_i32_0
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c512_i32_0 : BitVec 32 := 512#32
  let v2 : BitVec 32 := Scalar.muli arg1 c512_i32_0
  let v3 : BitVec 32 := v2
  let v6 : Index := Scalar.indexCast v3
  let c0_1 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat, arg1.toNat]

abbrev stage0_0 : Fin 1 → Memref sig .tc .vmem S4096x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  h_S512x4 : 0 < S512x4.numel
  transposes_S512x4_p1_0_S4x512 : S512x4.Transposes [1, 0] S4x512
  shapeCasts_S4x512_S4x512x1 : S4x512.ShapeCasts S4x512x1
  shapeCasts_S4x512x1_S4x512x1 : S4x512x1.ShapeCasts S4x512x1
  broadcasts_S4x512x1_S4x512x512 : S4x512x1.Broadcasts S4x512x512
  shapeCasts_S4x512_S4x1x512 : S4x512.ShapeCasts S4x1x512
  shapeCasts_S4x1x512_S4x1x512 : S4x1x512.ShapeCasts S4x1x512
  broadcasts_S4x1x512_S4x512x512 : S4x1x512.Broadcasts S4x512x512
  inb_S1x8x512x512_S1x4x512x512_0_0_0_0 : ∀ a, (![0, 0, 0, 0] : Fin 4 → Nat) a + S1x4x512x512.size a ≤ S1x8x512x512.size a
  h_S1x4x512x512 : 0 < S1x4x512x512.numel
  shapeCasts_S1x4x512x512_S4x512x512 : S1x4x512x512.ShapeCasts S4x512x512
  shapeCasts_S4x512x512_S1x4x512x512 : S4x512x512.ShapeCasts S1x4x512x512
  inb_S1x8x512x512_S1x4x512x512_0_4_0_0 : ∀ a, (![0, 4, 0, 0] : Fin 4 → Nat) a + S1x4x512x512.size a ≤ S1x8x512x512.size a
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x4.size a ≤ S4096x4.size a
  k0_off2_inb : ∀ i : grid0.Coords, ∀ a, (k0_off2 i) a + S512x4.size a ≤ S4096x4.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x4.size a ≤ S4096x4.size a
  hwx0_0 : ∀ i : grid0.Coords, EltTy.bits .f32 = 32 ∨ (Rect.block (s := S4096x4) S4096x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512x512.size a ≤ S1x8x4096x4096.size a
  hwx0_1 : ∀ i : grid0.Coords, EltTy.bits .f32 = 32 ∨ (Rect.block (s := S1x8x4096x4096) S1x8x512x512.size (cc0_transform_1 i) (hinb0_1 i)).WholeWords (EltTy.packing .f32)

variable [Facts₀]

abbrev win0_0 : Pipeline.Window sig grid0 :=
  Pipeline.Window.ofSpec (Memref.whole main_arg0) S4096x4.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4 : Shape := ⟨2, ![4096, 4]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S8x4096x4096 : Shape := ⟨3, ![8, 4096, 4096]⟩
abbrev S1x8x4096x4096 : Shape := ⟨4, ![1, 8, 4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4, .f32⟩
  | .hbm, ⟨1, _⟩ => ⟨S4x4096, .f32⟩
  | .hbm, ⟨2, _⟩ => ⟨S4x4096x1, .f32⟩
  | .hbm, ⟨3, _⟩ => ⟨S4x4096x4096, .f32⟩
  | .hbm, ⟨4, _⟩ => ⟨S4x1x4096, .f32⟩
  | .hbm, ⟨5, _⟩ => ⟨S4x4096x4096, .f32⟩
  | .hbm, ⟨6, _⟩ => ⟨S8x4096x4096, .f32⟩
  | .hbm, ⟨7, _⟩ => ⟨S1x8x4096x4096, .f32⟩
  | _, _ => ⟨S4096x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]

class Facts₀ : Prop where
  transposes_S4096x4_S4x4096_1_0 : S4096x4.Transposes [1, 0] S4x4096
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  concatenates_S4x4096x4096_S4x4096x4096_S8x4096x4096_d0 : Shape.Concatenates [S4x4096x4096, S4x4096x4096] S8x4096x4096 0
  bcast_S8x4096x4096_S1x8x4096x4096_1_2_3 : S8x4096x4096.BroadcastsInDim S1x8x4096x4096 (![1, 2, 3] : Fin 3 → Fin S1x8x4096x4096.rank)

variable [Facts₀]

class Facts : Prop extends Facts₀ where

variable [Facts]
-- ==== Proof.PairMap.lean ====
/-
  The pairwise feature map of a table.

  From a table `x` of 4096 rows and 4 columns the map builds the array of shape [1, 8, 4096, 4096] whose entry at
  (0, ch, a, b) is `x a ch` for the first four channels and `x b (ch - 4)` for the last four: channels 0..3 repeat
  row `a` of the table along the last axis, channels 4..7 repeat row `b` along the third axis. No arithmetic is
  done on the entries, so the map is stated for entries of any type.
-/
import Idealize.ShloMosaic.PureOps.Ideal
import Idealize.ShloMosaic.Lib.ValueIdx

noncomputable section

namespace Cert.PairMap

open Idealize.ShloMosaic Idealize.ShloMosaic.ValueIdx

variable {α : Type}

/-- Channel `ch` of the pair `(a, b)`: the entry of row `a` in column `ch` when `ch < 4`, else the entry of row `b`
    in column `ch - 4`. -/
def pairAt (x : Fin 4096 → Fin 4 → α) (ch : Fin 8) (a b : Fin 4096) : α :=
  if h : ch.val < 4 then x a ⟨ch.val, h⟩ else x b ⟨ch.val - 4, by have := ch.isLt; omega⟩

theorem pairAt_lt (x : Fin 4096 → Fin 4 → α) (ch : Fin 8) (a b : Fin 4096) (h : ch.val < 4) :
    pairAt x ch a b = x a ⟨ch.val, h⟩ := dif_pos h

theorem pairAt_ge (x : Fin 4096 → Fin 4 → α) (ch : Fin 8) (a b : Fin 4096) (h : ¬ch.val < 4) :
    pairAt x ch a b = x b ⟨ch.val - 4, by have := ch.isLt; omega⟩ := dif_neg h

/-- The whole array: `pairAt` of the table read by coordinates, at the index's last three coordinates. -/
def pairMap (x : (⟨2, ![4096, 4]⟩ : Shape).Idx → α) : (⟨4, ![1, 8, 4096, 4096]⟩ : Shape).Idx → α :=
  fun j => pairAt (fun r k => x (ix2 r k)) (j 1) (j 2) (j 3)

theorem pairMap_ix4 (x : (⟨2, ![4096, 4]⟩ : Shape).Idx → α) (u : Fin 1) (ch : Fin 8) (a b : Fin 4096) :
    pairMap x (ix4 u ch a b) = pairAt (fun r k => x (ix2 r k)) ch a b := rfl

end Cert.PairMap

end
-- ==== Proof.RefValue.lean ====
/-
  The reference program computes the pairwise feature map.

  The reference transposes the table to [4, 4096], repeats it along a new last axis (channel c at (a, b) is the
  table's row a, column c) and along a new middle axis (channel c at (a, b) is row b, column c), joins the two
  [4, 4096, 4096] arrays along the channel axis, and adds a leading unit axis. Read at an index (0, ch, a, b) the
  join takes its first operand when ch < 4 and its second, at channel ch - 4, otherwise: that is `pairMap`.
-/
import proofs.«143170_j16647293239442_2_alg».proof.Proof.Gen.ReferenceIdeal.Read
import proofs.«143170_j16647293239442_2_alg».proof.Proof.PairMap
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.PairMap
open Idealize.ShloMosaic Idealize.ShloMosaic.ValueIdx

variable {F : FTy → Type} [FloatOps F]

/-- The first operand of the join at (c, a, b): the table's row `a`, column `c` (transpose, then two broadcasts
    that ignore `b`). -/
theorem rowHalf_apply (x0 : (⟨S4096x4, .f32⟩ : BufTy).Contents (Elt F)) (c : Fin 4) (a b : Fin 4096) :
    val_main_v2 (F := F) x0 (ix3 c a b) = x0 (ix2 a c) := by
  rw [val_main_v2_apply, val_main_v1_apply, val_main_v0_apply]
  exact congrArg x0 (funext fun d => match d with | ⟨0, _⟩ => rfl | ⟨1, _⟩ => rfl)

/-- The second operand of the join at (c, a, b): the table's row `b`, column `c` (transpose, then two broadcasts
    that ignore `a`). -/
theorem colHalf_apply (x0 : (⟨S4096x4, .f32⟩ : BufTy).Contents (Elt F)) (c : Fin 4) (a b : Fin 4096) :
    val_main_v4 (F := F) x0 (ix3 c a b) = x0 (ix2 b c) := by
  rw [val_main_v4_apply, val_main_v3_apply, val_main_v0_apply]
  exact congrArg x0 (funext fun d => match d with | ⟨0, _⟩ => rfl | ⟨1, _⟩ => rfl)

/-- The reference's result is the pairwise feature map of its argument. -/
theorem result_eq (x0 : (⟨S4096x4, .f32⟩ : BufTy).Contents (Elt F)) :
    val_main_v6 (F := F) x0 = pairMap x0 := by
  funext j
  obtain ⟨u, ch, a, b, rfl⟩ : ∃ (u : Fin 1) (ch : Fin 8) (a b : Fin 4096), j = ix4 u ch a b :=
    ⟨j 0, j 1, j 2, j 3, eq_ix4 j⟩
  rw [val_main_v6_apply, pairMap_ix4]
  unfold val_main_v5
  by_cases h : ch.val < 4
  · rw [pairAt_lt _ _ _ _ h]
    refine (concatenate_pair_apply_left (s₁ := S4x4096x4096) (s₂ := S4x4096x4096) (0 : Fin S8x4096x4096.rank) _ _ _ (idx_main_v6 (ix4 u ch a b)) rfl
      (ix3 (⟨ch.val, h⟩ : Fin 4) a b) ?_).trans (rowHalf_apply x0 ⟨ch.val, h⟩ a b)
    intro d
    match d with
    | ⟨0, _⟩ => rfl
    | ⟨1, _⟩ => rfl
    | ⟨2, _⟩ => rfl
  · rw [pairAt_ge _ _ _ _ h]
    have hlt : ch.val - 4 < 4 := by have := ch.isLt; omega
    refine (concatenate_pair_apply_right (s₁ := S4x4096x4096) (s₂ := S4x4096x4096) (0 : Fin S8x4096x4096.rank) _ _ _ (idx_main_v6 (ix4 u ch a b)) rfl rfl
      (ix3 (⟨ch.val - 4, hlt⟩ : Fin 4) a b) ?_ ?_).trans (colHalf_apply x0 ⟨ch.val - 4, hlt⟩ a b)
    · intro d hd
      match d, hd with
      | ⟨0, _⟩, hd => exact absurd rfl hd
      | ⟨1, _⟩, _ => rfl
      | ⟨2, _⟩, _ => rfl
    · show ch.val - 4 + 4 = ch.val
      omega

end Cert.ReferenceIdeal.RefValue

end
-- ==== Proof.Payload.lean ====
/-
  The two vectors the kernel body stores, read at an index.

  The body loads two blocks of 512 table rows (one for the point's row range, one for its column range), and from
  each builds a [1, 4, 512, 512] vector by a transpose to [4, 512], a re-cast that adds a unit axis, a broadcast along
  that axis, and a re-cast that adds a leading unit axis. None of these changes an entry: the vector built from the
  row block reads, at (0, c, p, q), the block's entry (p, c) whatever q is, and the one built from the column block
  reads the block's entry (q, c) whatever p is.
-/
import proofs.«143170_j16647293239442_2_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen
open Idealize.ShloMosaic Idealize.ShloMosaic.ValueIdx

variable {F : FTy → Type} [FloatOps F]

/-- The vector stored into channels 0..3, at (u, c, p, q): the row block's entry (p, c). -/
theorem rowPart_apply (v5 : Vec F S512x4 .f32) (u : Fin 1) (c : Fin 4) (p q : Fin 512) :
    k0_pay1 v5 (ix4 u c p q) = v5 (ix2 p c) := by
  unfold k0_pay1
  dsimp only
  refine (shapeCast_abc_1abc_apply _ _ u c p q).trans ?_
  refine (broadcastTo_apply _ _ (ix3 c p q) (ix3 c p (0 : Fin 1)) ?_).trans ?_
  · intro d
    match d with
    | ⟨0, _⟩ => show c.val = if (4 : Nat) = 1 then 0 else c.val; rw [if_neg (by decide)]
    | ⟨1, _⟩ => show p.val = if (512 : Nat) = 1 then 0 else p.val; rw [if_neg (by decide)]
    | ⟨2, _⟩ => show 0 = if (1 : Nat) = 1 then 0 else q.val; rw [if_pos rfl]
  refine (congrFun (shapeCast_self _ _) _).trans ?_
  refine (shapeCast_apply _ _ (ix3 c p (0 : Fin 1)) (ix2 c p) ?_).trans ?_
  · rw [Shape.rowMajor_val_two, Shape.rowMajor_val_three]
    show c.val * 512 + p.val = (c.val * 512 + p.val) * 1 + 0
    omega
  exact transpose_ix2_apply _ _ c p

/-- The vector stored into channels 4..7, at (u, c, p, q): the column block's entry (q, c). -/
theorem colPart_apply (v7 : Vec F S512x4 .f32) (u : Fin 1) (c : Fin 4) (p q : Fin 512) :
    k0_pay2 v7 (ix4 u c p q) = v7 (ix2 q c) := by
  unfold k0_pay2
  dsimp only
  refine (shapeCast_abc_1abc_apply _ _ u c p q).trans ?_
  refine (broadcastTo_apply _ _ (ix3 c p q) (ix3 c (0 : Fin 1) q) ?_).trans ?_
  · intro d
    match d with
    | ⟨0, _⟩ => show c.val = if (4 : Nat) = 1 then 0 else c.val; rw [if_neg (by decide)]
    | ⟨1, _⟩ => show 0 = if (1 : Nat) = 1 then 0 else p.val; rw [if_pos rfl]
    | ⟨2, _⟩ => show q.val = if (512 : Nat) = 1 then 0 else q.val; rw [if_neg (by decide)]
  refine (congrFun (shapeCast_self _ _) _).trans ?_
  refine (shapeCast_apply _ _ (ix3 c (0 : Fin 1) q) (ix2 c q) ?_).trans ?_
  · rw [Shape.rowMajor_val_two, Shape.rowMajor_val_three]
    show c.val * 512 + q.val = (c.val * 1 + 0) * 512 + q.val
    omega
  exact transpose_ix2_apply _ _ c q

end Cert.KernelIdeal.Payload

end
-- ==== Proof.Block.lean ====
/-
  What one grid point writes into its output block.

  The grid is 8 × 8; point (i, j) owns the block of rows 512·i .. 512·i+511 and columns 512·j .. 512·j+511 of every
  channel. Its body loads rows 512·i+p and rows 512·j+q of the table (p, q < 512), and stores two vectors that tile the
  [1, 8, 512, 512] block: channels 0..3 from the first load, channels 4..7 from the second. Read at (0, ch, p, q) the
  block therefore holds the table's entry (512·i+p, ch) when ch < 4 and (512·j+q, ch-4) otherwise — the pairwise map
  of the table at the pair of rows (512·i+p, 512·j+q).
-/
import proofs.«143170_j16647293239442_2_alg».proof.Proof.Gen.KernelIdeal.Frame
import proofs.«143170_j16647293239442_2_alg».proof.Proof.Payload
import proofs.«143170_j16647293239442_2_alg».proof.Proof.PairMap
import Idealize.ShloMosaic.Lib.Pipeline.Value
import Idealize.ShloMosaic.Lib.ValueIdx
import Idealize.ShloMosaic.Lib.Tactic

set_option maxRecDepth 16384

noncomputable section

namespace Cert.KernelIdeal.Block

open Cert.KernelIdeal Cert.KernelIdeal.Gen Cert.KernelIdeal.Payload Cert.PairMap
open Idealize.ShloMosaic Idealize.ShloMosaic.TcCoe Idealize.ShloMosaic.ValueIdx Idealize.SL.Sem

variable {F : FTy → Type} [FloatOps F]

/-- Row `p` of tile `i`: the table row 512·i + p. -/
def tileRow (i : Fin 8) (p : Fin 512) : Fin 4096 :=
  ⟨512 * i.val + p.val, by have := i.isLt; have := p.isLt; omega⟩

/-- The block of point `i` as a function of the whole table: at (u, ch, p, q) the pair of table rows
    (512·i₀+p, 512·i₁+q) read at channel `ch`. -/
def blockMap (i : grid0.Coords) (x0 : Vec F S4096x4 .f32) : Vec F S1x8x512x512 .f32 :=
  fun y => pairAt (fun r k => x0 (ix2 r k)) (y 1) (tileRow (i 0) (y 2)) (tileRow (i 1) (y 3))

/-- The first load reads the 512 table rows of the point's row tile. -/
theorem load_rowTile (i : grid0.Coords) (arg2 : Memref sig .tc .vmem S4096x4 .f32) (harg2 : arg2.IsWhole)
    (x0 : Vec F S4096x4 .f32) (hin : ∀ a, (k0_off1 i) a + S512x4.size a ≤ S4096x4.size a) (p : Fin 512) (k : Fin 4) :
    View.readAt (Elt F) arg2.view (Rect.unit (s := S4096x4) (k0_off1 i) S512x4.size hin).toLoadRect (harg2.unread x0) (ix2 p k)
      = x0 (ix2 (tileRow (i 0) p) k) := by
  show arg2.view.read (Elt F) (harg2.unread x0) _ = _
  rw [harg2.read_unread]
  refine congrArg x0 (funext fun d => Fin.ext ?_)
  match d with
  | ⟨0, _⟩ =>
    show (k0_off1 i) 0 + 1 * p.val = 512 * (i 0).val + p.val
    rw [k0_off1_eq]
    show 512 * (i 0).val + 1 * p.val = 512 * (i 0).val + p.val
    omega
  | ⟨1, _⟩ =>
    show (k0_off1 i) 1 + 1 * k.val = k.val
    rw [k0_off1_eq]
    show 0 + 1 * k.val = k.val
    omega

/-- The second load reads the 512 table rows of the point's column tile. -/
theorem load_colTile (i : grid0.Coords) (arg2 : Memref sig .tc .vmem S4096x4 .f32) (harg2 : arg2.IsWhole)
    (x0 : Vec F S4096x4 .f32) (hin : ∀ a, (k0_off2 i) a + S512x4.size a ≤ S4096x4.size a) (q : Fin 512) (k : Fin 4) :
    View.readAt (Elt F) arg2.view (Rect.unit (s := S4096x4) (k0_off2 i) S512x4.size hin).toLoadRect (harg2.unread x0) (ix2 q k)
      = x0 (ix2 (tileRow (i 1) q) k) := by
  show arg2.view.read (Elt F) (harg2.unread x0) _ = _
  rw [harg2.read_unread]
  refine congrArg x0 (funext fun d => Fin.ext ?_)
  match d with
  | ⟨0, _⟩ =>
    show (k0_off2 i) 0 + 1 * q.val = 512 * (i 1).val + q.val
    rw [k0_off2_eq]
    show 512 * (i 1).val + 1 * q.val = 512 * (i 1).val + q.val
    omega
  | ⟨1, _⟩ =>
    show (k0_off2 i) 1 + 1 * k.val = k.val
    rw [k0_off2_eq]
    show 0 + 1 * k.val = k.val
    omega

/-- The store into channels 0..3 agrees with `blockMap`: its vector at a local index is the block map at that index
    placed in the block (channel offset 0). -/
theorem rowPiece (i : grid0.Coords) (x0 : Vec F S4096x4 .f32) (v5 : Vec F S512x4 .f32)
    (hv : ∀ (p : Fin 512) (k : Fin 4), v5 (ix2 p k) = x0 (ix2 (tileRow (i 0) p) k))
    (hin : ∀ a, (![0, 0, 0, 0] : Fin 4 → Nat) a + S1x4x512x512.size a ≤ S1x8x512x512.size a)
    (x : S1x4x512x512.Idx) :
    k0_pay1 v5 x = blockMap i x0 ((Rect.unit (s := S1x8x512x512) ![0, 0, 0, 0] S1x4x512x512.size hin).emb x) := by
  obtain ⟨u, c, p, q, rfl⟩ : ∃ (u : Fin 1) (c : Fin 4) (p q : Fin 512), x = ix4 u c p q :=
    ⟨x 0, x 1, x 2, x 3, eq_ix4 x⟩
  rw [rowPart_apply, hv]
  unfold blockMap
  have hlt : (((Rect.unit (s := S1x8x512x512) ![0, 0, 0, 0] S1x4x512x512.size hin).emb (ix4 u c p q)) 1).val < 4 := by
    show 0 + 1 * c.val < 4
    have := c.isLt
    omega
  rw [pairAt_lt _ _ _ _ hlt]
  refine congrArg x0 (funext fun d => Fin.ext ?_)
  match d with
  | ⟨0, _⟩ =>
    show 512 * (i 0).val + p.val = 512 * (i 0).val + (0 + 1 * p.val)
    omega
  | ⟨1, _⟩ =>
    show c.val = 0 + 1 * c.val
    omega

/-- The store into channels 4..7 agrees with `blockMap` (channel offset 4). -/
theorem colPiece (i : grid0.Coords) (x0 : Vec F S4096x4 .f32) (v7 : Vec F S512x4 .f32)
    (hv : ∀ (q : Fin 512) (k : Fin 4), v7 (ix2 q k) = x0 (ix2 (tileRow (i 1) q) k))
    (hin : ∀ a, (![0, 4, 0, 0] : Fin 4 → Nat) a + S1x4x512x512.size a ≤ S1x8x512x512.size a)
    (x : S1x4x512x512.Idx) :
    k0_pay2 v7 x = blockMap i x0 ((Rect.unit (s := S1x8x512x512) ![0, 4, 0, 0] S1x4x512x512.size hin).emb x) := by
  obtain ⟨u, c, p, q, rfl⟩ : ∃ (u : Fin 1) (c : Fin 4) (p q : Fin 512), x = ix4 u c p q :=
    ⟨x 0, x 1, x 2, x 3, eq_ix4 x⟩
  rw [colPart_apply, hv]
  unfold blockMap
  have hge : ¬(((Rect.unit (s := S1x8x512x512) ![0, 4, 0, 0] S1x4x512x512.size hin).emb (ix4 u c p q)) 1).val < 4 := by
    show ¬(4 + 1 * c.val < 4)
    omega
  rw [pairAt_ge _ _ _ _ hge]
  refine congrArg x0 (funext fun d => Fin.ext ?_)
  match d with
  | ⟨0, _⟩ =>
    show 512 * (i 1).val + q.val = 512 * (i 1).val + (0 + 1 * q.val)
    omega
  | ⟨1, _⟩ =>
    show c.val = 4 + 1 * c.val - 4
    omega

/-- What the body leaves in the output block at point `i`, when its input buffer holds the table `x0`: the block map. -/
theorem out_eq (c : Dev nD) (i : grid0.Coords) (arg2 : Memref sig .tc .vmem S4096x4 .f32) (harg2 : arg2.IsWhole)
    (arg3 : Memref sig .tc .vmem S1x8x512x512 .f32) (harg3 : arg3.IsWhole) (x0 : Vec F S4096x4 .f32) :
    out0_A_1 c i arg2 harg2 arg3 harg3 x0 = blockMap i x0 := by
  funext y
  unfold out0_A_1
  rw [View.read_writes_junk_apply_eq_canon]
  refine View.canon_apply_of_pieces (blockMap i x0) _ ?_ y (cover0_A_1 c i arg2 harg2 arg3 harg3 x0 y)
  unfold kernelRun0_A
  dsimp only
  intro pc hpc
  rcases List.mem_cons.mp hpc with rfl | hpc
  · intro x
    exact colPiece i x0 _ (fun q k => load_colTile i arg2 harg2 x0 (k0_off2_inb i) q k)
      inb_S1x8x512x512_S1x4x512x512_0_4_0_0 x
  · rcases List.mem_cons.mp hpc with rfl | hpc
    · intro x
      exact rowPiece i x0 _ (fun p k => load_rowTile i arg2 harg2 x0 (k0_off1_inb i) p k)
        inb_S1x8x512x512_S1x4x512x512_0_0_0_0 x
    · exact absurd hpc List.not_mem_nil

end Cert.KernelIdeal.Block

end
-- ==== Proof.Final.lean ====
/-
  From the blocks to the whole array.

  Output block (i, j) of the 8 × 8 grid sits at rows 512·i.., columns 512·j.. of all eight channels, and the input
  window is the whole table at every point. So what point (i, j) writes back — the block map of the table — is the
  pairwise map of the table read through that block: both read table rows 512·i+p and 512·j+q. Every index (0, ch, a, b)
  of the array lies in the block of the point (a / 512, b / 512), and every point writes back, so after the run the
  array is the pairwise map of the table.
-/
import proofs.«143170_j16647293239442_2_alg».proof.Proof.Gen.KernelIdeal.Value
import proofs.«143170_j16647293239442_2_alg».proof.Proof.Block
import proofs.«143170_j16647293239442_2_alg».proof.Proof.PairMap
import Idealize.ShloMosaic.Lib.Pipeline.Value
import Idealize.ShloMosaic.Lib.ValueIdx

set_option maxRecDepth 16384

noncomputable section

namespace Cert.KernelIdeal.Final

open Cert.KernelIdeal Cert.KernelIdeal.Gen Cert.KernelIdeal.Block Cert.PairMap
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The two index maps over the 64 grid points: the table's window never moves; the output's block index is
    (0, 0, i, j) at the point of coordinates (i, j). -/
theorem index_facts : ∀ t : Fin cfg0.N,
    win0_0.index t (0 : Fin 2) = 0 ∧ win0_0.index t (1 : Fin 2) = 0
    ∧ win0_1.index t (0 : Fin 4) = 0 ∧ win0_1.index t (1 : Fin 4) = 0
    ∧ win0_1.index t (2 : Fin 4) = (grid0.coords t 0).val ∧ win0_1.index t (3 : Fin 4) = (grid0.coords t 1).val :=
  (by decide +kernel : ∀ t : Fin grid0.N,
    win0_0.index t (0 : Fin 2) = 0 ∧ win0_0.index t (1 : Fin 2) = 0
    ∧ win0_1.index t (0 : Fin 4) = 0 ∧ win0_1.index t (1 : Fin 4) = 0
    ∧ win0_1.index t (2 : Fin 4) = (grid0.coords t 0).val ∧ win0_1.index t (3 : Fin 4) = (grid0.coords t 1).val)

/-- Every pair of tile numbers is some point's output block index. -/
theorem index_onto : ∀ (q0 q1 : Fin 8), ∃ t : Fin cfg0.N, win0_1.index t = ![0, 0, q0.val, q1.val] :=
  (by decide +kernel : ∀ (q0 q1 : Fin 8), ∃ t : Fin grid0.N, win0_1.index t = ![0, 0, q0.val, q1.val])

/-- The input block at any point is the whole table. -/
theorem iblk_eq (c : Dev nD) (t : Fin cfg0.N) :
    (iblk m c 0 t : Vec F S4096x4 .f32) = V m c main_arg0 := by
  obtain ⟨e0, e1, -⟩ := index_facts t
  funext y
  unfold iblk
  show V m c main_arg0 (((cfg0.win 0).blk t).view.emb y) = V m c main_arg0 y
  refine congrArg (V m c main_arg0) (funext fun a => Fin.ext ?_)
  match a with
  | ⟨0, _⟩ =>
    show win0_0.index t (0 : Fin 2) * 4096 + 1 * (y 0).val = (y 0).val
    omega
  | ⟨1, _⟩ =>
    show win0_0.index t (1 : Fin 2) * 4 + 1 * (y 1).val = (y 1).val
    omega

theorem pairAt_congr {α : Type} (x : Fin 4096 → Fin 4 → α) {ch ch' : Fin 8} {a a' b b' : Fin 4096}
    (h1 : ch = ch') (h2 : a = a') (h3 : b = b') : pairAt x ch a b = pairAt x ch' a' b' := by
  subst h1 h2 h3; rfl

/-- What point `t` writes back is the pairwise map of the table, read through the point's block. -/
theorem flushed_eq (c : Dev nD) (t : Fin cfg0.N) :
    (dats m 0 c).flushed 1 t = ((cfg0.win 1).blk t).view.read (Elt F) (pairMap (V m c main_arg0)) := by
  rw [Cert.KernelIdeal.Value.flushed1_A, out_eq, iblk_eq]
  obtain ⟨-, -, e0, e1, e2, e3⟩ := index_facts t
  funext y
  show blockMap (grid0.coords t) (V m c main_arg0) y = pairMap (V m c main_arg0) (((cfg0.win 1).blk t).view.emb y)
  unfold blockMap pairMap
  refine pairAt_congr _ (Fin.ext ?_) (Fin.ext ?_) (Fin.ext ?_)
  · show (y 1).val = win0_1.index t (1 : Fin 4) * 8 + 1 * (y 1).val
    omega
  · show 512 * (grid0.coords t 0).val + (y 2).val = win0_1.index t (2 : Fin 4) * 512 + 1 * (y 2).val
    omega
  · show 512 * (grid0.coords t 1).val + (y 3).val = win0_1.index t (3 : Fin 4) * 512 + 1 * (y 3).val
    omega

/-- An index of the array is in point `t`'s block iff each coordinate is in the block's range on its axis. -/
theorem mem_blk (t : Fin cfg0.N) (i : S1x8x4096x4096.Idx) :
    i ∈ ((cfg0.win 1).blk t).view.set ↔ ∀ a : Fin 4, win0_1.index t a * S1x8x512x512.size a ≤ (i a).val
      ∧ (i a).val < win0_1.index t a * S1x8x512x512.size a + S1x8x512x512.size a := by
  show i ∈ ((View.whole main_v0).slice (win0_1.rect t)).set ↔ _
  rw [View.set_slice_whole, Rect.mem_set_unit]
  exact Iff.rfl

/-- Every index of the array is in the block of the point whose tile numbers are its last two coordinates over 512. -/
theorem covered (i : S1x8x4096x4096.Idx) :
    ∃ t : Fin cfg0.N, (cfg0.win 1).flush t = true ∧ i ∈ ((cfg0.win 1).blk t).view.set := by
  have h0 : (i 0).val < 1 := (i 0).isLt
  have h1 : (i 1).val < 8 := (i 1).isLt
  have h2 : (i 2).val < 4096 := (i 2).isLt
  have h3 : (i 3).val < 4096 := (i 3).isLt
  obtain ⟨t, ht⟩ := index_onto ⟨(i 2).val / 512, by omega⟩ ⟨(i 3).val / 512, by omega⟩
  have q0 : win0_1.index t (0 : Fin 4) = 0 := congrFun ht 0
  have q1 : win0_1.index t (1 : Fin 4) = 0 := congrFun ht 1
  have q2 : win0_1.index t (2 : Fin 4) = (i 2).val / 512 := congrFun ht 2
  have q3 : win0_1.index t (3 : Fin 4) = (i 3).val / 512 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 8 ≤ (i 1).val ∧ (i 1).val < win0_1.index t (1 : Fin 4) * 8 + 8
    omega
  | ⟨2, _⟩ =>
    show win0_1.index t (2 : Fin 4) * 512 ≤ (i 2).val ∧ (i 2).val < win0_1.index t (2 : Fin 4) * 512 + 512
    omega
  | ⟨3, _⟩ =>
    show win0_1.index t (3 : Fin 4) * 512 ≤ (i 3).val ∧ (i 3).val < win0_1.index t (3 : Fin 4) * 512 + 512
    omega

/-- The array after the run: the pairwise map of the table as launched. -/
theorem final (c : Dev nD) :
    (dats m 0 c).arrAt 1 cfg0.N = pairMap (m ((c : Thread nD τ).loc main_arg0)) :=
  (dats m 0 c).arrAt_eq_of_cover 1 (pairMap (V m c main_arg0)) (fun t _ => flushed_eq m c t) covered

/-- Every weakly fair execution ends with the result array at the pairwise map of the table and the table unchanged. -/
theorem run : θ_run defs (onTc (τ := τ) (main (F := F))) ⟨m, fun _ => 0, ρ⟩ fun r => ∀ c : Dev nD,
      r.2.mem ((c : Thread nD τ).loc main_v0) = pairMap (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Final

end
-- ==== Proof.lean ====
/-
  The kernel and the reference both compute the pairwise feature map of a one-hot table.

  From a table of 4096 rows and 4 columns both programs produce the array of shape [1, 8, 4096, 4096] whose entry
  (0, ch, a, b) is the table's entry (a, ch) for ch < 4 and (b, ch - 4) for ch ≥ 4 (`Cert.PairMap.pairMap`). Neither
  program does arithmetic on the entries: every entry of the result is one entry of the table, so the two results are
  equal at every extended real, finite or not, and finiteness of the input is never used.

  The kernel covers the array with an 8 × 8 grid of [1, 8, 512, 512] blocks; at point (i, j) it reads table rows
  512·i.. and 512·j.. and stores channels 0..3 and 4..7 of the block (`Proof/Payload.lean`, `Proof/Block.lean`); the
  blocks tile the array (`Proof/Final.lean`). The reference transposes, broadcasts twice, joins along the channel
  axis and adds a unit axis (`Proof/RefValue.lean`). The idealized kernel is the kernel's own text read at the
  extended reals, so nothing is owed for its idealization.
-/
import proofs.«143170_j16647293239442_2_alg».proof.Defs
import proofs.«143170_j16647293239442_2_alg».proof.Proof.Gen.Kernel
import proofs.«143170_j16647293239442_2_alg».proof.Proof.Gen.Kernel.Skeleton
import proofs.«143170_j16647293239442_2_alg».proof.Proof.Gen.Kernel.Launch
import proofs.«143170_j16647293239442_2_alg».proof.Proof.Gen.Kernel.Points
import proofs.«143170_j16647293239442_2_alg».proof.Proof.Gen.Kernel.Frame
import proofs.«143170_j16647293239442_2_alg».proof.Proof.Gen.KernelIdeal
import proofs.«143170_j16647293239442_2_alg».proof.Proof.Gen.KernelIdeal.Skeleton
import proofs.«143170_j16647293239442_2_alg».proof.Proof.Gen.KernelIdeal.Launch
import proofs.«143170_j16647293239442_2_alg».proof.Proof.Gen.KernelIdeal.Points
import proofs.«143170_j16647293239442_2_alg».proof.Proof.Gen.KernelIdeal.Frame
import proofs.«143170_j16647293239442_2_alg».proof.Proof.Gen.ReferenceIdeal
import proofs.«143170_j16647293239442_2_alg».proof.Proof.Gen.KernelIdeal.Value
import proofs.«143170_j16647293239442_2_alg».proof.Proof.Gen.ReferenceIdeal.Run
import proofs.«143170_j16647293239442_2_alg».proof.Proof.Gen.ReferenceIdeal.Read
import proofs.«143170_j16647293239442_2_alg».proof.Proof.Gen.Pre_finite_inputs
import proofs.«143170_j16647293239442_2_alg».proof.Proof.PairMap
import proofs.«143170_j16647293239442_2_alg».proof.Proof.RefValue
import proofs.«143170_j16647293239442_2_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves the table unchanged. -/
theorem frame_k : Cert.frame_Kernel := fun m ρ _ => Cert.Kernel.Gen.frame m ρ

/-- The idealized kernel runs and leaves the table unchanged. -/
theorem frame_ki : Cert.frame_KernelIdeal := fun m ρ _ => Cert.KernelIdeal.Gen.frame m ρ

/-- The reference runs and leaves the table unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From tables that agree, the kernel's result array and the reference's are both the pairwise map of the table. -/
theorem algebraic : Cert.algebraic_KernelIdeal_ReferenceIdeal := by
  intro m ρ m' ρ' _ hagree
  refine ⟨fun c => Cert.PairMap.pairMap (m ((c.tc : Thread Cert.KernelIdeal.nD Cert.KernelIdeal.τ).loc Cert.KernelIdeal.main_arg0)),
    Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
